-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S128 .f32) (main_arg7 : FVec F S256x128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  main_v33

def fn {F : FTy → Type} [FloatOps F] (main_arg0 : FVec F S10000x128 .f32) (main_arg1 : IVec S2x640000 32) (main_arg2 : FVec F S128x256 .f32) (main_arg3 : FVec F S256 .f32) (main_arg4 : FVec F S128x256 .f32) (main_arg5 : FVec F S256x128 .f32) (main_arg6 : FVec F S128 .f32) (main_arg7 : FVec F S256x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_v13 main_v16
-- ==== Kernel.lean ====
abbrev S10000x128 : Shape := ⟨2, ![10000, 128]⟩
abbrev S2x640000 : Shape := ⟨2, ![2, 640000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S10000 : Shape := ⟨1, ![10000]⟩
abbrev S640000x1 : Shape := ⟨2, ![640000, 1]⟩
abbrev S10000x1 : Shape := ⟨2, ![10000, 1]⟩
abbrev S640000x128 : Shape := ⟨2, ![640000, 128]⟩
abbrev S1x256 : Shape := ⟨2, ![1, 256]⟩
abbrev S10000x256 : Shape := ⟨2, ![10000, 256]⟩
abbrev S2000x128 : Shape := ⟨2, ![2000, 128]⟩
abbrev S2000x256 : Shape := ⟨2, ![2000, 256]⟩
abbrev S640000x256 : Shape := ⟨2, ![640000, 256]⟩
abbrev S1x128 : Shape := ⟨2, ![1, 128]⟩

abbrev nBuf : Space → Nat
  | .hbm => 64
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S10000, .f32⟩
  | .hbm, ⟨16, _⟩ => ⟨S640000x1, .i32⟩
  | .hbm, ⟨17, _⟩ => ⟨S10000, .f32⟩
  | .hbm, ⟨18, _⟩ => ⟨S_, .f32⟩
  | .hbm, ⟨19, _⟩ => ⟨S10000, .f32⟩
  | .hbm, ⟨20, _⟩ => ⟨S10000, .f32⟩
  | .hbm, ⟨21, _⟩ => ⟨S10000x1, .f32⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S640000x128, .f32⟩
  | .hbm, ⟨31, _⟩ => ⟨S_, .f32⟩
  | .hbm, ⟨32, _⟩ => ⟨S10000x128, .f32⟩
  | .hbm, ⟨33, _⟩ => ⟨S640000x1, .i32⟩
  | .hbm, ⟨34, _⟩ => ⟨S10000x128, .f32⟩
  | .hbm, ⟨35, _⟩ => ⟨S10000x128, .f32⟩
  | .hbm, ⟨36, _⟩ => ⟨S10000x128, .f32⟩
  | .hbm, ⟨37, _⟩ => ⟨S10000x128, .bf16⟩
  | .hbm, ⟨38, _⟩ => ⟨S10000x128, .bf16⟩
  | .hbm, ⟨39, _⟩ => ⟨S128x256, .bf16⟩
  | .hbm, ⟨40, _⟩ => ⟨S128x256, .bf16⟩
  | .hbm, ⟨41, _⟩ => ⟨S1x256, .f32⟩
  | .hbm, ⟨42, _⟩ => ⟨S10000x256, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000x256, .f32⟩
  | .hbm, ⟨52, _⟩ => ⟨S_, .f32⟩
  | .hbm, ⟨53, _⟩ => ⟨S10000x256, .f32⟩
  | .hbm, ⟨54, _⟩ => ⟨S640000x1, .i32⟩
  | .hbm, ⟨55, _⟩ => ⟨S10000x256, .f32⟩
  | .hbm, ⟨56, _⟩ => ⟨S10000x256, .f32⟩
  | .hbm, ⟨57, _⟩ => ⟨S10000x256, .f32⟩
  | .hbm, ⟨58, _⟩ => ⟨S10000x256, .bf16⟩
  | .hbm, ⟨59, _⟩ => ⟨S10000x256, .bf16⟩
  | .hbm, ⟨60, _⟩ => ⟨S256x128, .bf16⟩
  | .hbm, ⟨61, _⟩ => ⟨S256x128, .bf16⟩
  | .hbm, ⟨62, _⟩ => ⟨S1x128, .f32⟩
  | .hbm, ⟨63, _⟩ => ⟨S10000x128, .f32⟩
  | .local _ .vmem, ⟨0, _⟩ => ⟨S2000x128, .bf16⟩
  | .local _ .vmem, ⟨1, _⟩ => ⟨S2000x128, .bf16⟩
  | .local _ .vmem, ⟨2, _⟩ => ⟨S2000x128, .bf16⟩
  | .local _ .vmem, ⟨3, _⟩ => ⟨S2000x128, .bf16⟩
  | .local _ .vmem, ⟨4, _⟩ => ⟨S128x256, .bf16⟩
  | .local _ .vmem, ⟨5, _⟩ => ⟨S128x256, .bf16⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .bf16⟩
  | .local _ .vmem, ⟨10, _⟩ => ⟨S2000x256, .bf16⟩
  | .local _ .vmem, ⟨11, _⟩ => ⟨S2000x256, .bf16⟩
  | .local _ .vmem, ⟨12, _⟩ => ⟨S2000x256, .bf16⟩
  | .local _ .vmem, ⟨13, _⟩ => ⟨S256x128, .bf16⟩
  | .local _ .vmem, ⟨14, _⟩ => ⟨S256x128, .bf16⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S10000 : S_.BroadcastsInDim S10000 (![] : Fin 0 → Fin S10000.rank)
  bcast_S640000_S640000x1_0 : S640000.BroadcastsInDim S640000x1 (![0] : Fin 1 → Fin S640000x1.rank)
  bcast_S10000_S10000x1_0 : S10000.BroadcastsInDim S10000x1 (![0] : Fin 1 → Fin S10000x1.rank)
  bcast_S_S10000x128 : S_.BroadcastsInDim S10000x128 (![] : Fin 0 → Fin S10000x128.rank)
  bcast_S10000x1_S10000x128_0_1 : S10000x1.BroadcastsInDim S10000x128 (![0, 1] : Fin 2 → Fin S10000x128.rank)
  bitsLt_bf16_f32 : FTy.bits .bf16 < FTy.bits .f32
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S10000x256 : S_.BroadcastsInDim S10000x256 (![] : Fin 0 → Fin S10000x256.rank)
  bcast_S10000x1_S10000x256_0_1 : S10000x1.BroadcastsInDim S10000x256 (![0, 1] : Fin 2 → Fin S10000x256.rank)
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S10000_S640000x1_S640000_n_0_0_1_wf : ScatterDims.WF S10000 S640000x1 S640000 [] [0] [0] 1
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S2000x128_S128x256_S2000x256_1_0_0_1_n_n_wf : DotDims.WF S2000x128 S128x256 S2000x256 [1] [0] [0] [1] [] []
  gather_S10000x256_S640000x1_S640000x256_1_0_n_n_0_1_1256_wf : GatherDims.WF S10000x256 S640000x1 S640000x256 [1] [0] [] [0] [] 1 ![1, 256]
  scatter_S10000x256_S640000x1_S640000x256_1_0_0_1_wf : ScatterDims.WF S10000x256 S640000x1 S640000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .bf16 = 32 ∨ (Rect.block (s := S10000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S10000x128.size a
  hwx0_1 : ∀ i : grid0.Coords, EltTy.bits .bf16 = 32 ∨ (Rect.block (s := S10000x128) S2000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S10000x256.size a
  hwx0_5 : ∀ i : grid0.Coords, EltTy.bits .f32 = 32 ∨ (Rect.block (s := S10000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .bf16 = 32 ∨ (Rect.block (s := S10000x256) S2000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S10000x256.size a
  hwx1_1 : ∀ i : grid1.Coords, EltTy.bits .bf16 = 32 ∨ (Rect.block (s := S10000x256) S2000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .bf16 = 32 ∨ (Rect.block (s := S256x128) S256x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S10000x128.size a
  hwx1_5 : ∀ i : grid1.Coords, EltTy.bits .f32 = 32 ∨ (Rect.block (s := S10000x128) S2000x128.size (cc1_transform_5 i) (hinb1_5 i)).WholeWords (EltTy.packing .f32)

variable [Facts₀]

def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S10000x256_S640000x1_S640000x256_1_0_n_n_0_1_1256 : GatherDims S10000x256 S640000x1 S640000x256 where
  offsetDims := [1]
  collapsedSliceDims := [0]
  operandBatchingDims := []
  startIndicesBatchingDims := []
  startIndexMap := [0]
  indexVectorDim := 1
  sliceSizes := ![1, 256]
  wf := gather_S10000x256_S640000x1_S640000x256_1_0_n_n_0_1_1256_wf
def scatter_S10000x256_S640000x1_S640000x256_1_0_0_1 : ScatterDims S10000x256 S640000x1 S640000x256 where
  updateWindowDims := [1]
  insertedWindowDims := [0]
  scatterDimsToOperandDims := [0]
  indexVectorDim := 1
  wf := scatter_S10000x256_S640000x1_S640000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v23) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S10000x256 : Shape := ⟨2, ![10000, 256]⟩
abbrev S1x256 : Shape := ⟨2, ![1, 256]⟩
abbrev S640000x256 : Shape := ⟨2, ![640000, 256]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S10000x128, .f32⟩
  | .hbm, ⟨23, _⟩ => ⟨S640000x1, .i32⟩
  | .hbm, ⟨24, _⟩ => ⟨S10000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S10000, .f32⟩
  | .hbm, ⟨29, _⟩ => ⟨S640000x1, .i32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x128, .f32⟩
  | .hbm, ⟨36, _⟩ => ⟨S10000x128, .f32⟩
  | .hbm, ⟨37, _⟩ => ⟨S10000x256, .f32⟩
  | .hbm, ⟨38, _⟩ => ⟨S1x256, .f32⟩
  | .hbm, ⟨39, _⟩ => ⟨S10000x256, .f32⟩
  | .hbm, ⟨40, _⟩ => ⟨S10000x256, .f32⟩
  | .hbm, ⟨41, _⟩ => ⟨S10000x256, .f32⟩
  | .hbm, ⟨42, _⟩ => ⟨S10000x256, .f32⟩
  | .hbm, ⟨43, _⟩ => ⟨S_, .f32⟩
  | .hbm, ⟨44, _⟩ => ⟨S10000x256, .f32⟩
  | .hbm, ⟨45, _⟩ => ⟨S10000x256, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x256, .f32⟩
  | .hbm, ⟨55, _⟩ => ⟨S_, .f32⟩
  | .hbm, ⟨56, _⟩ => ⟨S10000x256, .f32⟩
  | .hbm, ⟨57, _⟩ => ⟨S640000x1, .i32⟩
  | .hbm, ⟨58, _⟩ => ⟨S10000x256, .f32⟩
  | .hbm, ⟨59, _⟩ => ⟨S_, .f32⟩
  | .hbm, ⟨60, _⟩ => ⟨S640000, .f32⟩
  | .hbm, ⟨61, _⟩ => ⟨S_, .f32⟩
  | .hbm, ⟨62, _⟩ => ⟨S10000, .f32⟩
  | .hbm, ⟨63, _⟩ => ⟨S640000x1, .i32⟩
  | .hbm, ⟨64, _⟩ => ⟨S10000, .f32⟩
  | .hbm, ⟨65, _⟩ => ⟨S_, .f32⟩
  | .hbm, ⟨66, _⟩ => ⟨S10000, .f32⟩
  | .hbm, ⟨67, _⟩ => ⟨S10000, .f32⟩
  | .hbm, ⟨68, _⟩ => ⟨S10000x1, .f32⟩
  | .hbm, ⟨69, _⟩ => ⟨S10000x256, .f32⟩
  | .hbm, ⟨70, _⟩ => ⟨S10000x256, .f32⟩
  | .hbm, ⟨71, _⟩ => ⟨S10000x128, .f32⟩
  | .hbm, ⟨72, _⟩ => ⟨S1x128, .f32⟩
  | .hbm, ⟨73, _⟩ => ⟨S10000x128, .f32⟩
  | .hbm, ⟨74, _⟩ => ⟨S10000x128, .f32⟩
  | .hbm, ⟨75, _⟩ => ⟨S10000x128, .f32⟩
  | .hbm, ⟨76, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S10000x1_S10000x256_0_1 : S10000x1.BroadcastsInDim S10000x256 (![0, 1] : Fin 2 → Fin S10000x256.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S10000x128_S128x256_S10000x256_1_0_0_1_n_n_wf : DotDims.WF S10000x128 S128x256 S10000x256 [1] [0] [0] [1] [] []
  gather_S10000x256_S640000x1_S640000x256_1_0_n_n_0_1_1256_wf : GatherDims.WF S10000x256 S640000x1 S640000x256 [1] [0] [] [0] [] 1 ![1, 256]
  scatter_S10000x256_S640000x1_S640000x256_1_0_0_1_wf : ScatterDims.WF S10000x256 S640000x1 S640000x256 [1] [0] [0] 1
  dot_S10000x256_S256x128_S10000x128_1_0_0_1_n_n_wf : DotDims.WF S10000x256 S256x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def gather_S10000x256_S640000x1_S640000x256_1_0_n_n_0_1_1256 : GatherDims S10000x256 S640000x1 S640000x256 where
  offsetDims := [1]
  collapsedSliceDims := [0]
  operandBatchingDims := []
  startIndicesBatchingDims := []
  startIndexMap := [0]
  indexVectorDim := 1
  sliceSizes := ![1, 256]
  wf := gather_S10000x256_S640000x1_S640000x256_1_0_n_n_0_1_1256_wf
def scatter_S10000x256_S640000x1_S640000x256_1_0_0_1 : ScatterDims S10000x256 S640000x1 S640000x256 where
  updateWindowDims := [1]
  insertedWindowDims := [0]
  scatterDimsToOperandDims := [0]
  indexVectorDim := 1
  wf := scatter_S10000x256_S640000x1_S640000x256_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.KernelRun.lean ====
/-
  The idealized kernel's run, with the result named.

  The program is four segments: the host lines that build the first layer's operands, the first pipelined
  region, the host lines that aggregate its output and build the second layer's operands, the second region.
  The contents of the TensorCore's buffers at each boundary are a fold from the launch memory: a host stretch
  leaves each buffer it writes at its operation's value of the buffers it reads, a region leaves its arrays at
  what its write-backs leave and every other buffer as it found it. Every weakly fair execution ends, without a
  fault, with every unscoped buffer at the last boundary's contents; read at the result buffer that is the
  second region's output array after its five write-backs, and read at an argument it is the launch contents.
-/
import proofs.«162481_j20057497272825_1_alg».proof.Proof.Gen.KernelIdeal.Frame

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v46) = W4 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v46 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Sage

end
-- ==== Proof.BlockProduct.lean ====
/-
  The two kernel bodies, read at one entry of the block they store.

  Each body multiplies a block of 2000 rows of the aggregated features by the left weight matrix, the same
  2000 rows of the node features by the right weight matrix, adds the two products and the bias row, and (in
  the first layer only) takes the maximum with zero. Over the extended reals a matrix product into a zero
  accumulator is, entry by entry, the plain sum over the contracted axis of the products of the two factors;
  the shape casts to the same shape do nothing, and the bias row [1, n] broadcast to [2000, n] is read at its
  column. So entry (p, q) of the stored block is

      (sum_k agg(p, k) * wl(k, q)  +  sum_k h(p, k) * wr(k, q))  +  b(0, q)

  and, in the first layer, the maximum of that with zero.
-/
import proofs.«162481_j20057497272825_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Sage

open Cert.KernelIdeal Cert.KernelIdeal.Gen Idealize.ShloMosaic Idealize.ShloMosaic.ValueIdx

/-- The contraction of the first layer's block product: 128 input features. -/
abbrev dotA := dot_S2000x128_S128x256_S2000x256_1_0_0_1_n_n
/-- The contraction of the second layer's block product: 256 hidden features. -/
abbrev dotB := dot_S2000x256_S256x128_S2000x128_1_0_0_1_n_n

/-! ## The first layer's block product, [2000, 128] by [128, 256] -/

theorem dotA_lhs0 (j : S2000x256.Idx) (q : dotA.contr.Idx) : (dotA.lhsIdx j q 0).val = (j 0).val := by
  unfold DotDims.lhsIdx
  rw [dif_neg (show ¬(0 : Fin S2000x128.rank) ∈ dotA.lhsBatch by decide), dif_pos (show (0 : Fin S2000x128.rank) ∈ dotA.lhsNonContracting by decide)]
  rfl
theorem dotA_lhs1 (j : S2000x256.Idx) (q : dotA.contr.Idx) : (dotA.lhsIdx j q 1).val = (q ⟨0, by decide⟩).val :=
  dotA.lhsIdx_val_of_single rfl j q
theorem dotA_rhs0 (j : S2000x256.Idx) (q : dotA.contr.Idx) : (dotA.rhsIdx j q 0).val = (q ⟨0, by decide⟩).val :=
  dotA.rhsIdx_val_of_single rfl j q
theorem dotA_rhs1 (j : S2000x256.Idx) (q : dotA.contr.Idx) : (dotA.rhsIdx j q 1).val = (j 1).val := by
  unfold DotDims.rhsIdx
  rw [dif_neg (show ¬(1 : Fin S128x256.rank) ∈ dotA.rhsBatch by decide), dif_pos (show (1 : Fin S128x256.rank) ∈ dotA.rhsNonContracting by decide)]
  rfl

/-- Entry (p, q) of a [2000, 128] by [128, 256] product into zero: the sum over the 128 contracted columns. -/
theorem productA_apply (l : FVec Ideal S2000x128 .bf16) (r : FVec Ideal S128x256 .bf16) (p : Fin 2000) (q : Fin 256) :
    FloatOps.matmul dotA none l r (constant (F := Ideal) S2000x256 .f32 0x00000000#32) (ix2 p q)
      = ∑ k : Fin 128, l (ix2 p k) * r (ix2 k q) := by
  rw [Ideal.matmul_constant_zero_apply, ← Equiv.sum_comp (contrEquiv1 dotA 128 rfl rfl).symm]
  refine Finset.sum_congr rfl fun k _ => ?_
  have hk := contrEquiv1_symm_val dotA 128 rfl rfl k
  have el : dotA.lhsIdx (ix2 p q) ((contrEquiv1 dotA 128 rfl rfl).symm k) = ix2 p k := funext fun a => Fin.ext (by
    match a with
    | ⟨0, _⟩ => exact dotA_lhs0 _ _
    | ⟨1, _⟩ => exact (dotA_lhs1 _ _).trans hk)
  have er : dotA.rhsIdx (ix2 p q) ((contrEquiv1 dotA 128 rfl rfl).symm k) = ix2 k q := funext fun a => Fin.ext (by
    match a with
    | ⟨0, _⟩ => exact (dotA_rhs0 _ _).trans hk
    | ⟨1, _⟩ => exact dotA_rhs1 _ _)
  rw [el, er]

/-- The bias row [1, 256] broadcast over 2000 rows, read at (p, q), is the row at column q. -/
theorem biasA_apply (b : FVec Ideal S1x256 .f32) (p : Fin 2000) (q : Fin 256) :
    broadcastTo S2000x256 b broadcasts_S1x256_S2000x256 (ix2 p q) = b (ix2 (0 : Fin 1) q) :=
  broadcastTo_apply b broadcasts_S1x256_S2000x256 (ix2 p q) (ix2 (0 : Fin 1) q) (fun a => by
    match a with
    | ⟨0, _⟩ => show (0 : Nat) = if (1 : Nat) = 1 then 0 else _; rw [if_pos rfl]
    | ⟨1, _⟩ => show q.val = if (256 : Nat) = 1 then 0 else q.val; rw [if_neg (by decide)])

/-- What the first layer's body stores, at entry (p, q) of its block. -/
theorem payA_apply (x0 x1 : FVec Ideal S2000x128 .bf16) (x2 x3 : FVec Ideal S128x256 .bf16) (x4 : FVec Ideal S1x256 .f32)
    (p : Fin 2000) (q : Fin 256) :
    k0_pay1 (F := Ideal) x0 x1 x2 x3 x4 (ix2 p q)
      = max (((∑ k : Fin 128, x0 (ix2 p k) * x2 (ix2 k q)) + (∑ k : Fin 128, x1 (ix2 p k) * x3 (ix2 k q))) + x4 (ix2 (0 : Fin 1) q))
          (Ideal.ofBits .f32 0x00000000#32) := by
  unfold k0_pay1
  simp only [shapeCast_self]
  show max ((FloatOps.matmul dotA none x0 x2 (constant (F := Ideal) S2000x256 .f32 0x00000000#32) (ix2 p q)
      + FloatOps.matmul dotA none x1 x3 (constant (F := Ideal) S2000x256 .f32 0x00000000#32) (ix2 p q))
      + broadcastTo S2000x256 x4 broadcasts_S1x256_S2000x256 (ix2 p q)) (Ideal.ofBits .f32 0x00000000#32) = _
  rw [productA_apply, productA_apply, biasA_apply]

/-! ## The second layer's block product, [2000, 256] by [256, 128] -/

theorem dotB_lhs0 (j : S2000x128.Idx) (q : dotB.contr.Idx) : (dotB.lhsIdx j q 0).val = (j 0).val := by
  unfold DotDims.lhsIdx
  rw [dif_neg (show ¬(0 : Fin S2000x256.rank) ∈ dotB.lhsBatch by decide), dif_pos (show (0 : Fin S2000x256.rank) ∈ dotB.lhsNonContracting by decide)]
  rfl
theorem dotB_lhs1 (j : S2000x128.Idx) (q : dotB.contr.Idx) : (dotB.lhsIdx j q 1).val = (q ⟨0, by decide⟩).val :=
  dotB.lhsIdx_val_of_single rfl j q
theorem dotB_rhs0 (j : S2000x128.Idx) (q : dotB.contr.Idx) : (dotB.rhsIdx j q 0).val = (q ⟨0, by decide⟩).val :=
  dotB.rhsIdx_val_of_single rfl j q
theorem dotB_rhs1 (j : S2000x128.Idx) (q : dotB.contr.Idx) : (dotB.rhsIdx j q 1).val = (j 1).val := by
  unfold DotDims.rhsIdx
  rw [dif_neg (show ¬(1 : Fin S256x128.rank) ∈ dotB.rhsBatch by decide), dif_pos (show (1 : Fin S256x128.rank) ∈ dotB.rhsNonContracting by decide)]
  rfl

/-- Entry (p, q) of a [2000, 256] by [256, 128] product into zero: the sum over the 256 contracted columns. -/
theorem productB_apply (l : FVec Ideal S2000x256 .bf16) (r : FVec Ideal S256x128 .bf16) (p : Fin 2000) (q : Fin 128) :
    FloatOps.matmul dotB none l r (constant (F := Ideal) S2000x128 .f32 0x00000000#32) (ix2 p q)
      = ∑ k : Fin 256, l (ix2 p k) * r (ix2 k q) := by
  rw [Ideal.matmul_constant_zero_apply, ← Equiv.sum_comp (contrEquiv1 dotB 256 rfl rfl).symm]
  refine Finset.sum_congr rfl fun k _ => ?_
  have hk := contrEquiv1_symm_val dotB 256 rfl rfl k
  have el : dotB.lhsIdx (ix2 p q) ((contrEquiv1 dotB 256 rfl rfl).symm k) = ix2 p k := funext fun a => Fin.ext (by
    match a with
    | ⟨0, _⟩ => exact dotB_lhs0 _ _
    | ⟨1, _⟩ => exact (dotB_lhs1 _ _).trans hk)
  have er : dotB.rhsIdx (ix2 p q) ((contrEquiv1 dotB 256 rfl rfl).symm k) = ix2 k q := funext fun a => Fin.ext (by
    match a with
    | ⟨0, _⟩ => exact (dotB_rhs0 _ _).trans hk
    | ⟨1, _⟩ => exact dotB_rhs1 _ _)
  rw [el, er]

/-- The bias row [1, 128] broadcast over 2000 rows, read at (p, q), is the row at column q. -/
theorem biasB_apply (b : FVec Ideal S1x128 .f32) (p : Fin 2000) (q : Fin 128) :
    broadcastTo S2000x128 b broadcasts_S1x128_S2000x128 (ix2 p q) = b (ix2 (0 : Fin 1) q) :=
  broadcastTo_apply b broadcasts_S1x128_S2000x128 (ix2 p q) (ix2 (0 : Fin 1) q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-- What the second layer's body stores, at entry (p, q) of its block. -/
theorem payB_apply (x0 x1 : FVec Ideal S2000x256 .bf16) (x2 x3 : FVec Ideal S256x128 .bf16) (x4 : FVec Ideal S1x128 .f32)
    (p : Fin 2000) (q : Fin 128) :
    k1_pay1 (F := Ideal) x0 x1 x2 x3 x4 (ix2 p q)
      = ((∑ k : Fin 256, x0 (ix2 p k) * x2 (ix2 k q)) + (∑ k : Fin 256, x1 (ix2 p k) * x3 (ix2 k q))) + x4 (ix2 (0 : Fin 1) q) := by
  unfold k1_pay1
  simp only [shapeCast_self]
  show (FloatOps.matmul dotB none x0 x2 (constant (F := Ideal) S2000x128 .f32 0x00000000#32) (ix2 p q)
      + FloatOps.matmul dotB none x1 x3 (constant (F := Ideal) S2000x128 .f32 0x00000000#32) (ix2 p q))
      + broadcastTo S2000x128 x4 broadcasts_S1x128_S2000x128 (ix2 p q) = _
  rw [productB_apply, productB_apply, biasB_apply]

end Cert.KernelIdeal.Sage

end
-- ==== Proof.LayerOne.lean ====
/-
  The first layer as one function of whole arrays, and the first pipelined region's output array.

  `layer1 A X Wl Wr b` is the [10000, 256] array whose entry (r, q) is

      max ((sum_k A(r, k) * Wl(k, q) + sum_k X(r, k) * Wr(k, q)) + b(0, q), 0).

  The region walks five grid points; point t stages rows 2000 t .. 2000 t + 1999 of the two [10000, 128] operands,
  the two whole weight matrices and the bias row, and writes back rows 2000 t .. 2000 t + 1999 of the result. Entry
  (p, q) of the block written at point t is the body's stored value at (p, q), which only reads row p of the two
  staged row blocks, that is row 2000 t + p of the operands: the block is block t of `layer1` of the arrays as the
  region finds them. The five row blocks cover the array (row r lies in block r / 2000), so the array ends
  holding `layer1` of the entry contents.
-/
import proofs.«162481_j20057497272825_1_alg».proof.Proof.Gen.KernelIdeal.Frame
import proofs.«162481_j20057497272825_1_alg».proof.Proof.BlockProduct
import Idealize.ShloMosaic.Lib.Pipeline.Value

noncomputable section

namespace Cert.KernelIdeal.Sage

open Cert.KernelIdeal Cert.KernelIdeal.Gen Idealize.ShloMosaic Idealize.ShloMosaic.TcCoe Idealize.SL.Sem Idealize.ShloMosaic.ValueIdx
open Idealize.ShloMosaic.Pipeline (Dat)

/-- Entry (r, q) of the first layer. -/
def entry1 (A X : FVec Ideal S10000x128 .bf16) (Wl Wr : FVec Ideal S128x256 .bf16) (b : FVec Ideal S1x256 .f32)
    (r : Fin 10000) (q : Fin 256) : EReal :=
  max (((∑ k : Fin 128, A (ix2 r k) * Wl (ix2 k q)) + (∑ k : Fin 128, X (ix2 r k) * Wr (ix2 k q))) + b (ix2 (0 : Fin 1) q))
    (Ideal.ofBits .f32 0x00000000#32)

/-- The first layer of whole arrays. -/
def layer1 (A X : FVec Ideal S10000x128 .bf16) (Wl Wr : FVec Ideal S128x256 .bf16) (b : FVec Ideal S1x256 .f32) :
    FVec Ideal S10000x256 .f32 :=
  fun i => entry1 A X Wl Wr b ⟨(i 0).val, idx2_lt0 i⟩ ⟨(i 1).val, idx2_lt1 i⟩

theorem layer1_apply (A X : FVec Ideal S10000x128 .bf16) (Wl Wr : FVec Ideal S128x256 .bf16) (b : FVec Ideal S1x256 .f32)
    (i : S10000x256.Idx) (r : Fin 10000) (q : Fin 256) (h0 : (i 0).val = r.val) (h1 : (i 1).val = q.val) :
    layer1 A X Wl Wr b i = entry1 A X Wl Wr b r q := by
  unfold layer1
  congr 1 <;> exact Fin.ext (by assumption)

/-- The body's stored value at (p, q) is entry (r, q) of the first layer once row p of the two staged row blocks is
    row r of the operands and the staged weights and bias are the arrays'. -/
theorem stored1_eq_entry1 (x0 x1 : FVec Ideal S2000x128 .bf16) (x2 x3 : FVec Ideal S128x256 .bf16) (x4 : FVec Ideal S1x256 .f32)
    (A X : FVec Ideal S10000x128 .bf16) (Wl Wr : FVec Ideal S128x256 .bf16) (b : FVec Ideal S1x256 .f32)
    (p : Fin 2000) (q : Fin 256) (r : Fin 10000)
    (h0 : ∀ k : Fin 128, x0 (ix2 p k) = A (ix2 r k)) (h1 : ∀ k : Fin 128, x1 (ix2 p k) = X (ix2 r k))
    (h2 : ∀ k : Fin 128, x2 (ix2 k q) = Wl (ix2 k q)) (h3 : ∀ k : Fin 128, x3 (ix2 k q) = Wr (ix2 k q))
    (h4 : x4 (ix2 (0 : Fin 1) q) = b (ix2 (0 : Fin 1) q)) :
    k0_pay1 (F := Ideal) x0 x1 x2 x3 x4 (ix2 p q) = entry1 A X Wl Wr b r q := by
  rw [payA_apply]
  unfold entry1
  rw [Finset.sum_congr rfl (fun k _ => by rw [h0 k, h2 k] : ∀ k ∈ (Finset.univ : Finset (Fin 128)), x0 (ix2 p k) * x2 (ix2 k q) = A (ix2 r k) * Wl (ix2 k q)),
    Finset.sum_congr rfl (fun k _ => by rw [h1 k, h3 k] : ∀ k ∈ (Finset.univ : Finset (Fin 128)), x1 (ix2 p k) * x3 (ix2 k q) = X (ix2 r k) * Wr (ix2 k q)), h4]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the five grid points: the row operands and the result move with the point, the
    weights and the bias stay at block (0, 0). -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the aggregated operand's block at point t is row 2000 t + p of the array. -/
theorem rows0_0 (c : Dev nD) (t : Fin cfg0.N) (p : Fin 2000) (k : Fin 128) (r : Fin 10000) (hr : r.val = 2000 * t.val + p.val) :
    (iblk0 V c 0 t : FVec Ideal S2000x128 .bf16) (ix2 p k) = (V c main_v23 : FVec Ideal S10000x128 .bf16) (ix2 r k) := by
  obtain ⟨e0, e1, -⟩ := index_facts0 t
  unfold iblk0
  rw [View.read_apply]
  show V c main_v23 _ = V c main_v23 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- Row p of the node-feature operand's block at point t is row 2000 t + p of the array. -/
theorem rows0_1 (c : Dev nD) (t : Fin cfg0.N) (p : Fin 2000) (k : Fin 128) (r : Fin 10000) (hr : r.val = 2000 * t.val + p.val) :
    (iblk0 V c 1 t : FVec Ideal S2000x128 .bf16) (ix2 p k) = (V c main_v24 : FVec Ideal S10000x128 .bf16) (ix2 r k) := by
  obtain ⟨-, -, e0, e1, -⟩ := index_facts0 t
  unfold iblk0
  rw [View.read_apply]
  show V c main_v24 _ = V c main_v24 _
  congr 1
  funext a
  apply Fin.ext
  match a with
  | ⟨0, _⟩ => show win0_1.index t (0 : Fin 2) * 2000 + 1 * p.val = r.val; rw [e0, hr]; omega
  | ⟨1, _⟩ => show win0_1.index t (1 : Fin 2) * 128 + 1 * k.val = k.val; rw [e1]; omega

/-- The left weight matrix's one block is the matrix. -/
theorem whole0_2 (c : Dev nD) (t : Fin cfg0.N) (k : Fin 128) (q : Fin 256) :
    (iblk0 V c 2 t : FVec Ideal S128x256 .bf16) (ix2 k q) = (V c main_v25 : FVec Ideal S128x256 .bf16) (ix2 k q) := by
  obtain ⟨-, -, -, -, e0, e1, -⟩ := index_facts0 t
  unfold iblk0
  rw [View.read_apply]
  show V c main_v25 _ = V c main_v25 _
  congr 1
  funext a
  apply Fin.ext
  match a with
  | ⟨0, _⟩ => show win0_2.index t (0 : Fin 2) * 128 + 1 * k.val = k.val; rw [e0]; omega
  | ⟨1, _⟩ => show win0_2.index t (1 : Fin 2) * 256 + 1 * q.val = q.val; rw [e1]; omega

/-- The right weight matrix's one block is the matrix. -/
theorem whole0_3 (c : Dev nD) (t : Fin cfg0.N) (k : Fin 128) (q : Fin 256) :
    (iblk0 V c 3 t : FVec Ideal S128x256 .bf16) (ix2 k q) = (V c main_v26 : FVec Ideal S128x256 .bf16) (ix2 k q) := by
  obtain ⟨-, -, -, -, -, -, e0, e1, -⟩ := index_facts0 t
  unfold iblk0
  rw [View.read_apply]
  show V c main_v26 _ = V c main_v26 _
  congr 1
  funext a
  apply Fin.ext
  match a with
  | ⟨0, _⟩ => show win0_3.index t (0 : Fin 2) * 128 + 1 * k.val = k.val; rw [e0]; omega
  | ⟨1, _⟩ => show win0_3.index t (1 : Fin 2) * 256 + 1 * q.val = q.val; rw [e1]; omega

/-- The bias row's one block is the row. -/
theorem whole0_4 (c : Dev nD) (t : Fin cfg0.N) (q : Fin 256) :
    (iblk0 V c 4 t : FVec Ideal S1x256 .f32) (ix2 (0 : Fin 1) q) = (V c main_v27 : FVec Ideal S1x256 .f32) (ix2 (0 : Fin 1) q) := by
  obtain ⟨-, -, -, -, -, -, -, -, e0, e1, -⟩ := index_facts0 t
  unfold iblk0
  rw [View.read_apply]
  show V c main_v27 _ = V c main_v27 _
  congr 1
  funext a
  apply Fin.ext
  match a with
  | ⟨0, _⟩ => show win0_4.index t (0 : Fin 2) * 1 + 1 * (0 : Fin 1).val = (0 : Fin 1).val; rw [e0]; rfl
  | ⟨1, _⟩ => show win0_4.index t (1 : Fin 2) * 256 + 1 * q.val = q.val; rw [e1]; omega

/-- What point t writes back is block t of the first layer of the arrays as the region finds them. -/
theorem flushed0_eq (c : Dev nD) (t : Fin cfg0.N) :
    (dat0 V c).flushed 5 t = ((cfg0.win 5).blk t).view.read (Elt Ideal)
      (layer1 (V c main_v23) (V c main_v24) (V c main_v25) (V c main_v26) (V c main_v27)) := by
  have hN : cfg0.N = 5 := N_0
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  funext j
  obtain ⟨p, q, rfl⟩ : ∃ (p : Fin 2000) (q : Fin 256), j = ix2 p q := ⟨j 0, j 1, eq_ix2 j⟩
  obtain ⟨-, -, -, -, -, -, -, -, -, -, e0, e1⟩ := index_facts0 t
  have ht : t.val < 5 := hN ▸ t.isLt
  let r : Fin 10000 := ⟨2000 * t.val + p.val, by have := p.isLt; omega⟩
  show k0_pay1 (F := Ideal) (iblk0 V c 0 t) (iblk0 V c 1 t) (iblk0 V c 2 t) (iblk0 V c 3 t) (iblk0 V c 4 t) (ix2 p q)
    = layer1 (V c main_v23) (V c main_v24) (V c main_v25) (V c main_v26) (V c main_v27) (((cfg0.win 5).blk t).view.emb (ix2 p q))
  refine Eq.trans ?_ (layer1_apply (V c main_v23) (V c main_v24) (V c main_v25) (V c main_v26) (V c main_v27)
    (((cfg0.win 5).blk t).view.emb (ix2 p q)) r q ?_ ?_).symm
  · exact stored1_eq_entry1 (iblk0 V c 0 t) (iblk0 V c 1 t) (iblk0 V c 2 t) (iblk0 V c 3 t) (iblk0 V c 4 t)
      (V c main_v23) (V c main_v24) (V c main_v25) (V c main_v26) (V c main_v27) p q r
      (fun k => rows0_0 V c t p k r rfl) (fun k => rows0_1 V c t p k r rfl)
      (fun k => whole0_2 V c t k q) (fun k => whole0_3 V c t k q) (whole0_4 V c t q)
  · show win0_5.index t (0 : Fin 2) * 2000 + 1 * p.val = 2000 * t.val + p.val; rw [e0]; omega
  · show win0_5.index t (1 : Fin 2) * 256 + 1 * q.val = q.val; rw [e1]; omega

/-- An index of the result array is in point t's block iff each coordinate is in the block's range on its axis. -/
theorem mem_block0 (t : Fin cfg0.N) (i : S10000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v28).slice (win0_5.rect t)).set ↔ _
  rw [View.set_slice_whole, Rect.mem_set_unit]
  exact Iff.rfl

/-- Row r of the result lies in the block of point r / 2000. -/
theorem cover0 (i : S10000x256.Idx) : ∃ t : Fin cfg0.N, (cfg0.win 5).flush t = true ∧ i ∈ ((cfg0.win 5).blk t).view.set := by
  have hN : cfg0.N = 5 := N_0
  have hi0 : (i 0).val < 10000 := (i 0).isLt
  have hi1 : (i 1).val < 256 := (i 1).isLt
  let t : Fin cfg0.N := ⟨(i 0).val / 2000, by rw [hN]; omega⟩
  obtain ⟨-, -, -, -, -, -, -, -, -, -, e0, e1⟩ := index_facts0 t
  have ht : t.val = (i 0).val / 2000 := rfl
  refine ⟨t, flush0_5 t, ?_⟩
  rw [mem_block0]
  intro a
  match a with
  | ⟨0, _⟩ => show win0_5.index t (0 : Fin 2) * 2000 ≤ (i 0).val ∧ (i 0).val < win0_5.index t (0 : Fin 2) * 2000 + 2000; rw [e0, ht]; omega
  | ⟨1, _⟩ => show win0_5.index t (1 : Fin 2) * 256 ≤ (i 1).val ∧ (i 1).val < win0_5.index t (1 : Fin 2) * 256 + 256; rw [e1]; omega

/-- The first region's result array ends holding the first layer of the arrays as the region finds them. -/
theorem region0_result (c : Dev nD) :
    (dat0 V c).arrAt 5 cfg0.N = layer1 (V c main_v23) (V c main_v24) (V c main_v25) (V c main_v26) (V c main_v27) :=
  (dat0 V c).arrAt_eq_of_cover 5 _ (fun t _ => flushed0_eq V c t) cover0

end Cert.KernelIdeal.Sage

end
-- ==== Proof.LayerTwo.lean ====
/-
  The second layer as one function of whole arrays, and the second pipelined region's output array.

  `layer2 A X Wl Wr b` is the [10000, 128] array whose entry (r, q) is

      (sum_k A(r, k) * Wl(k, q) + sum_k X(r, k) * Wr(k, q)) + b(0, q),

  the sums over the 256 hidden features; there is no maximum with zero in this layer. The region has the first
  region's schedule: five grid points, point t staging rows 2000 t .. 2000 t + 1999 of the two [10000, 256]
  operands with the whole weights and bias, and writing back the same rows of the result. So the block written
  at point t is block t of `layer2` of the arrays as the region finds them, the five row blocks cover the array,
  and the array ends holding `layer2` of the entry contents.
-/
import proofs.«162481_j20057497272825_1_alg».proof.Proof.Gen.KernelIdeal.Frame
import proofs.«162481_j20057497272825_1_alg».proof.Proof.BlockProduct
import Idealize.ShloMosaic.Lib.Pipeline.Value

noncomputable section

namespace Cert.KernelIdeal.Sage

open Cert.KernelIdeal Cert.KernelIdeal.Gen Idealize.ShloMosaic Idealize.ShloMosaic.TcCoe Idealize.SL.Sem Idealize.ShloMosaic.ValueIdx
open Idealize.ShloMosaic.Pipeline (Dat)

/-- Entry (r, q) of the second layer. -/
def entry2 (A X : FVec Ideal S10000x256 .bf16) (Wl Wr : FVec Ideal S256x128 .bf16) (b : FVec Ideal S1x128 .f32)
    (r : Fin 10000) (q : Fin 128) : EReal :=
  ((∑ k : Fin 256, A (ix2 r k) * Wl (ix2 k q)) + (∑ k : Fin 256, X (ix2 r k) * Wr (ix2 k q))) + b (ix2 (0 : Fin 1) q)

/-- The second layer of whole arrays. -/
def layer2 (A X : FVec Ideal S10000x256 .bf16) (Wl Wr : FVec Ideal S256x128 .bf16) (b : FVec Ideal S1x128 .f32) :
    FVec Ideal S10000x128 .f32 :=
  fun i => entry2 A X Wl Wr b ⟨(i 0).val, idx2_lt0 i⟩ ⟨(i 1).val, idx2_lt1 i⟩

theorem layer2_apply (A X : FVec Ideal S10000x256 .bf16) (Wl Wr : FVec Ideal S256x128 .bf16) (b : FVec Ideal S1x128 .f32)
    (i : S10000x128.Idx) (r : Fin 10000) (q : Fin 128) (h0 : (i 0).val = r.val) (h1 : (i 1).val = q.val) :
    layer2 A X Wl Wr b i = entry2 A X Wl Wr b r q := by
  unfold layer2
  congr 1 <;> exact Fin.ext (by assumption)

/-- The body's stored value at (p, q) is entry (r, q) of the second layer once row p of the two staged row blocks is
    row r of the operands and the staged weights and bias are the arrays'. -/
theorem stored2_eq_entry2 (x0 x1 : FVec Ideal S2000x256 .bf16) (x2 x3 : FVec Ideal S256x128 .bf16) (x4 : FVec Ideal S1x128 .f32)
    (A X : FVec Ideal S10000x256 .bf16) (Wl Wr : FVec Ideal S256x128 .bf16) (b : FVec Ideal S1x128 .f32)
    (p : Fin 2000) (q : Fin 128) (r : Fin 10000)
    (h0 : ∀ k : Fin 256, x0 (ix2 p k) = A (ix2 r k)) (h1 : ∀ k : Fin 256, x1 (ix2 p k) = X (ix2 r k))
    (h2 : ∀ k : Fin 256, x2 (ix2 k q) = Wl (ix2 k q)) (h3 : ∀ k : Fin 256, x3 (ix2 k q) = Wr (ix2 k q))
    (h4 : x4 (ix2 (0 : Fin 1) q) = b (ix2 (0 : Fin 1) q)) :
    k1_pay1 (F := Ideal) x0 x1 x2 x3 x4 (ix2 p q) = entry2 A X Wl Wr b r q := by
  rw [payB_apply]
  unfold entry2
  rw [Finset.sum_congr rfl (fun k _ => by rw [h0 k, h2 k] : ∀ k ∈ (Finset.univ : Finset (Fin 256)), x0 (ix2 p k) * x2 (ix2 k q) = A (ix2 r k) * Wl (ix2 k q)),
    Finset.sum_congr rfl (fun k _ => by rw [h1 k, h3 k] : ∀ k ∈ (Finset.univ : Finset (Fin 256)), x1 (ix2 p k) * x3 (ix2 k q) = X (ix2 r k) * Wr (ix2 k q)), h4]

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the five grid points: the row operands and the result move with the point, the
    weights and the bias stay at block (0, 0). -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the aggregated operand's block at point t is row 2000 t + p of the array. -/
theorem rows1_0 (c : Dev nD) (t : Fin cfg1.N) (p : Fin 2000) (k : Fin 256) (r : Fin 10000) (hr : r.val = 2000 * t.val + p.val) :
    (iblk1 V c 0 t : FVec Ideal S2000x256 .bf16) (ix2 p k) = (V c main_v41 : FVec Ideal S10000x256 .bf16) (ix2 r k) := by
  obtain ⟨e0, e1, -⟩ := index_facts1 t
  unfold iblk1
  rw [View.read_apply]
  show V c main_v41 _ = V c main_v41 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 256 + 1 * k.val = k.val; rw [e1]; omega

/-- Row p of the node-feature operand's block at point t is row 2000 t + p of the array. -/
theorem rows1_1 (c : Dev nD) (t : Fin cfg1.N) (p : Fin 2000) (k : Fin 256) (r : Fin 10000) (hr : r.val = 2000 * t.val + p.val) :
    (iblk1 V c 1 t : FVec Ideal S2000x256 .bf16) (ix2 p k) = (V c main_v42 : FVec Ideal S10000x256 .bf16) (ix2 r k) := by
  obtain ⟨-, -, e0, e1, -⟩ := index_facts1 t
  unfold iblk1
  rw [View.read_apply]
  show V c main_v42 _ = V c main_v42 _
  congr 1
  funext a
  apply Fin.ext
  match a with
  | ⟨0, _⟩ => show win1_1.index t (0 : Fin 2) * 2000 + 1 * p.val = r.val; rw [e0, hr]; omega
  | ⟨1, _⟩ => show win1_1.index t (1 : Fin 2) * 256 + 1 * k.val = k.val; rw [e1]; omega

/-- The left weight matrix's one block is the matrix. -/
theorem whole1_2 (c : Dev nD) (t : Fin cfg1.N) (k : Fin 256) (q : Fin 128) :
    (iblk1 V c 2 t : FVec Ideal S256x128 .bf16) (ix2 k q) = (V c main_v43 : FVec Ideal S256x128 .bf16) (ix2 k q) := by
  obtain ⟨-, -, -, -, e0, e1, -⟩ := index_facts1 t
  unfold iblk1
  rw [View.read_apply]
  show V c main_v43 _ = V c main_v43 _
  congr 1
  funext a
  apply Fin.ext
  match a with
  | ⟨0, _⟩ => show win1_2.index t (0 : Fin 2) * 256 + 1 * k.val = k.val; rw [e0]; omega
  | ⟨1, _⟩ => show win1_2.index t (1 : Fin 2) * 128 + 1 * q.val = q.val; rw [e1]; omega

/-- The right weight matrix's one block is the matrix. -/
theorem whole1_3 (c : Dev nD) (t : Fin cfg1.N) (k : Fin 256) (q : Fin 128) :
    (iblk1 V c 3 t : FVec Ideal S256x128 .bf16) (ix2 k q) = (V c main_v44 : FVec Ideal S256x128 .bf16) (ix2 k q) := by
  obtain ⟨-, -, -, -, -, -, e0, e1, -⟩ := index_facts1 t
  unfold iblk1
  rw [View.read_apply]
  show V c main_v44 _ = V c main_v44 _
  congr 1
  funext a
  apply Fin.ext
  match a with
  | ⟨0, _⟩ => show win1_3.index t (0 : Fin 2) * 256 + 1 * k.val = k.val; rw [e0]; omega
  | ⟨1, _⟩ => show win1_3.index t (1 : Fin 2) * 128 + 1 * q.val = q.val; rw [e1]; omega

/-- The bias row's one block is the row. -/
theorem whole1_4 (c : Dev nD) (t : Fin cfg1.N) (q : Fin 128) :
    (iblk1 V c 4 t : FVec Ideal S1x128 .f32) (ix2 (0 : Fin 1) q) = (V c main_v45 : FVec Ideal S1x128 .f32) (ix2 (0 : Fin 1) q) := by
  obtain ⟨-, -, -, -, -, -, -, -, e0, e1, -⟩ := index_facts1 t
  unfold iblk1
  rw [View.read_apply]
  show V c main_v45 _ = V c main_v45 _
  congr 1
  funext a
  apply Fin.ext
  match a with
  | ⟨0, _⟩ => show win1_4.index t (0 : Fin 2) * 1 + 1 * (0 : Fin 1).val = (0 : Fin 1).val; rw [e0]; rfl
  | ⟨1, _⟩ => show win1_4.index t (1 : Fin 2) * 128 + 1 * q.val = q.val; rw [e1]; omega

/-- What point t writes back is block t of the second layer of the arrays as the region finds them. -/
theorem flushed1_eq (c : Dev nD) (t : Fin cfg1.N) :
    (dat1 V c).flushed 5 t = ((cfg1.win 5).blk t).view.read (Elt Ideal)
      (layer2 (V c main_v41) (V c main_v42) (V c main_v43) (V c main_v44) (V c main_v45)) := by
  have hN : cfg1.N = 5 := N_1
  show (cfg1.win 5).cut (grid1.coords t) ((dat1 V c).after 5 t) = _
  rw [after1_5]
  unfold out1_5
  rw [View.canon_unit_zero hz2]
  simp only [View.ld_unit_zero (S := S2000x256) hz2, View.ld_unit_zero (S := S256x128) hz2, View.ld_unit_zero (S := S1x128) hz2]
  funext j
  obtain ⟨p, q, rfl⟩ : ∃ (p : Fin 2000) (q : Fin 128), j = ix2 p q := ⟨j 0, j 1, eq_ix2 j⟩
  obtain ⟨-, -, -, -, -, -, -, -, -, -, e0, e1⟩ := index_facts1 t
  have ht : t.val < 5 := hN ▸ t.isLt
  let r : Fin 10000 := ⟨2000 * t.val + p.val, by have := p.isLt; omega⟩
  show k1_pay1 (F := Ideal) (iblk1 V c 0 t) (iblk1 V c 1 t) (iblk1 V c 2 t) (iblk1 V c 3 t) (iblk1 V c 4 t) (ix2 p q)
    = layer2 (V c main_v41) (V c main_v42) (V c main_v43) (V c main_v44) (V c main_v45) (((cfg1.win 5).blk t).view.emb (ix2 p q))
  refine Eq.trans ?_ (layer2_apply (V c main_v41) (V c main_v42) (V c main_v43) (V c main_v44) (V c main_v45)
    (((cfg1.win 5).blk t).view.emb (ix2 p q)) r q ?_ ?_).symm
  · exact stored2_eq_entry2 (iblk1 V c 0 t) (iblk1 V c 1 t) (iblk1 V c 2 t) (iblk1 V c 3 t) (iblk1 V c 4 t)
      (V c main_v41) (V c main_v42) (V c main_v43) (V c main_v44) (V c main_v45) p q r
      (fun k => rows1_0 V c t p k r rfl) (fun k => rows1_1 V c t p k r rfl)
      (fun k => whole1_2 V c t k q) (fun k => whole1_3 V c t k q) (whole1_4 V c t q)
  · show win1_5.index t (0 : Fin 2) * 2000 + 1 * p.val = 2000 * t.val + p.val; rw [e0]; omega
  · show win1_5.index t (1 : Fin 2) * 128 + 1 * q.val = q.val; rw [e1]; omega

/-- An index of the result array is in point t's block iff each coordinate is in the block's range on its axis. -/
theorem mem_block1 (t : Fin cfg1.N) (i : S10000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v46).slice (win1_5.rect t)).set ↔ _
  rw [View.set_slice_whole, Rect.mem_set_unit]
  exact Iff.rfl

/-- Row r of the result lies in the block of point r / 2000. -/
theorem cover1 (i : S10000x128.Idx) : ∃ t : Fin cfg1.N, (cfg1.win 5).flush t = true ∧ i ∈ ((cfg1.win 5).blk t).view.set := by
  have hN : cfg1.N = 5 := N_1
  have hi0 : (i 0).val < 10000 := (i 0).isLt
  have hi1 : (i 1).val < 128 := (i 1).isLt
  let t : Fin cfg1.N := ⟨(i 0).val / 2000, by rw [hN]; omega⟩
  obtain ⟨-, -, -, -, -, -, -, -, -, -, e0, e1⟩ := index_facts1 t
  have ht : t.val = (i 0).val / 2000 := rfl
  refine ⟨t, flush1_5 t, ?_⟩
  rw [mem_block1]
  intro a
  match a with
  | ⟨0, _⟩ => show win1_5.index t (0 : Fin 2) * 2000 ≤ (i 0).val ∧ (i 0).val < win1_5.index t (0 : Fin 2) * 2000 + 2000; rw [e0, ht]; omega
  | ⟨1, _⟩ => show win1_5.index t (1 : Fin 2) * 128 ≤ (i 1).val ∧ (i 1).val < win1_5.index t (1 : Fin 2) * 128 + 128; rw [e1]; omega

/-- The second region's result array ends holding the second layer of the arrays as the region finds them. -/
theorem region1_result (c : Dev nD) :
    (dat1 V c).arrAt 5 cfg1.N = layer2 (V c main_v41) (V c main_v42) (V c main_v43) (V c main_v44) (V c main_v45) :=
  (dat1 V c).arrAt_eq_of_cover 5 _ (fun t _ => flushed1_eq V c t) cover1

end Cert.KernelIdeal.Sage

end
-- ==== Proof.HostMean.lean ====
/-
  The host side both programs share: the mean of the neighbours' feature rows.

  The edge list is a [2, 640000] integer array: row 0 the source node of each edge, row 1 its destination. A
  negative source index is wrapped by adding 10000 (the node count). For a feature array X the aggregation
  gathers row src(e) of X for every edge e, adds the gathered rows into a zero array at row dst(e), and divides
  each row by the node's in-degree, taken as at least one: the in-degree is the same scatter of ones. The two
  programs print exactly these host operations, with the same literals (0, 1, 10000), around their dense layers;
  nothing in this certificate opens a gather or a scatter: the chain is carried as one function of the edge list
  and the feature array.
-/
import proofs.«162481_j20057497272825_1_alg».proof.Proof.Gen.KernelIdeal

noncomputable section

namespace Cert.KernelIdeal.Sage

open Cert.KernelIdeal Cert.KernelIdeal.Gen Idealize.ShloMosaic

variable {F : FTy → Type} [FloatOps F]

/-- Row 0 of the edge list: the source node of each edge. -/
def edgeSrc (E : (⟨S2x640000, .i32⟩ : BufTy).Contents (Elt F)) : (⟨S640000, .i32⟩ : BufTy).Contents (Elt F) :=
  shapeCast _ (extractStridedSlice S1x640000 ![0, 0] E slices_S2x640000_S1x640000_0_0) shapeCasts_S1x640000_S640000

/-- Row 1 of the edge list: the destination node of each edge. -/
def edgeDst (E : (⟨S2x640000, .i32⟩ : BufTy).Contents (Elt F)) : (⟨S640000, .i32⟩ : BufTy).Contents (Elt F) :=
  shapeCast _ (extractStridedSlice S1x640000 ![1, 0] E slices_S2x640000_S1x640000_1_0) shapeCasts_S1x640000_S640000

/-- The in-degree of every node, at least one, as a column [10000, 1]: ones scattered by destination. -/
def degreeColumn (dst : (⟨S640000, .i32⟩ : BufTy).Contents (Elt F)) : (⟨S10000x1, .f32⟩ : BufTy).Contents (Elt F) :=
  broadcastInDim S10000x1 ![0] bcast_S10000_S10000x1_0
    (maximumf
      (Host.scatterAdd scatter_S10000_S640000x1_S640000_n_0_0_1
        (broadcastInDim S10000 ![] bcast_S_S10000 (constant (F := F) S_ .f32 0x00000000#32))
        (broadcastInDim S640000x1 ![0] bcast_S640000_S640000x1_0 dst)
        (broadcastInDim S640000 ![] bcast_S_S640000 (constant (F := F) S_ .f32 0x3F800000#32)))
      (broadcastInDim S10000 ![] bcast_S_S10000 (constant (F := F) S_ .f32 0x3F800000#32)))

/-- The gather's start indices: the sources, a negative one wrapped by the node count, as a column [640000, 1]. -/
def wrappedSrc (src : (⟨S640000, .i32⟩ : BufTy).Contents (Elt F)) : (⟨S640000x1, .i32⟩ : BufTy).Contents (Elt F) :=
  broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 10000#32))) src)

/-- Mean aggregation of 128 features per node: gathered source rows added at their destinations, over the degree. -/
def mean128 (src dst : (⟨S640000, .i32⟩ : BufTy).Contents (Elt F)) (deg : (⟨S10000x1, .f32⟩ : BufTy).Contents (Elt F))
    (X : (⟨S10000x128, .f32⟩ : BufTy).Contents (Elt F)) : (⟨S10000x128, .f32⟩ : BufTy).Contents (Elt F) :=
  Host.divf
    (Host.scatterAdd scatter_S10000x128_S640000x1_S640000x128_1_0_0_1
      (broadcastInDim S10000x128 ![] bcast_S_S10000x128 (constant (F := F) S_ .f32 0x00000000#32))
      (broadcastInDim S640000x1 ![0] bcast_S640000_S640000x1_0 dst)
      (Host.gather gather_S10000x128_S640000x1_S640000x128_1_0_n_n_0_1_1128 X (wrappedSrc src)))
    (broadcastInDim S10000x128 ![0, 1] bcast_S10000x1_S10000x128_0_1 deg)

/-- Mean aggregation of 256 features per node. -/
def mean256 (src dst : (⟨S640000, .i32⟩ : BufTy).Contents (Elt F)) (deg : (⟨S10000x1, .f32⟩ : BufTy).Contents (Elt F))
    (H : (⟨S10000x256, .f32⟩ : BufTy).Contents (Elt F)) : (⟨S10000x256, .f32⟩ : BufTy).Contents (Elt F) :=
  Host.divf
    (Host.scatterAdd scatter_S10000x256_S640000x1_S640000x256_1_0_0_1
      (broadcastInDim S10000x256 ![] bcast_S_S10000x256 (constant (F := F) S_ .f32 0x00000000#32))
      (broadcastInDim S640000x1 ![0] bcast_S640000_S640000x1_0 dst)
      (Host.gather gather_S10000x256_S640000x1_S640000x256_1_0_n_n_0_1_1256 H (wrappedSrc src)))
    (broadcastInDim S10000x256 ![0, 1] bcast_S10000x1_S10000x256_0_1 deg)

end Cert.KernelIdeal.Sage

end
-- ==== Proof.KernelValue.lean ====
/-
  The value of the idealized kernel's result, as one term of the argument arrays.

  The hidden features are the first layer of (the mean aggregation of x, x, the first weights and bias), the
  operands passed through the change of format to bf16 and the bias reshaped to a row; the result is the second
  layer of (the mean aggregation of the hidden features, the hidden features, the second weights and bias), in
  the same way. This module reads the buffer contents at the program's four boundaries back to that term: the
  first host stretch's results are its operations' values of the launch contents; the first region leaves its
  output array at the first layer of its operands (the region's closed form) and every other buffer as it was;
  the second host stretch's results are its operations' values of those; the second region leaves its output
  array at the second layer of its operands.
-/
import proofs.«162481_j20057497272825_1_alg».proof.Proof.Gen.KernelIdeal.Frame
import proofs.«162481_j20057497272825_1_alg».proof.Proof.LayerOne
import proofs.«162481_j20057497272825_1_alg».proof.Proof.LayerTwo
import proofs.«162481_j20057497272825_1_alg».proof.Proof.HostMean
import Idealize.ShloMosaic.Lib.StableHlo.Run

set_option maxRecDepth 16384

noncomputable section

namespace Cert.KernelIdeal.Sage

open Cert.KernelIdeal Cert.KernelIdeal.Gen Idealize.ShloMosaic Idealize.ShloMosaic.TcCoe Idealize.SL.Sem Idealize.ShloMosaic.StableHlo

/-- The hidden features: the first layer of the mean-aggregated node features and the node features. -/
def hidden (E : (⟨S2x640000, .i32⟩ : BufTy).Contents (Elt Ideal)) (x : (⟨S10000x128, .f32⟩ : BufTy).Contents (Elt Ideal))
    (w1l : (⟨S128x256, .f32⟩ : BufTy).Contents (Elt Ideal)) (b1 : (⟨S256, .f32⟩ : BufTy).Contents (Elt Ideal))
    (w1r : (⟨S128x256, .f32⟩ : BufTy).Contents (Elt Ideal)) : FVec Ideal S10000x256 .f32 :=
  layer1 (truncf .bf16 (mean128 (edgeSrc E) (edgeDst E) (degreeColumn (edgeDst E)) x) bitsLt_bf16_f32)
    (truncf .bf16 x bitsLt_bf16_f32) (truncf .bf16 w1l bitsLt_bf16_f32) (truncf .bf16 w1r bitsLt_bf16_f32)
    (shapeCast S1x256 b1 shapeCasts_S256_S1x256)

/-- The result: the second layer of the mean-aggregated hidden features and the hidden features. -/
def result (E : (⟨S2x640000, .i32⟩ : BufTy).Contents (Elt Ideal)) (x : (⟨S10000x128, .f32⟩ : BufTy).Contents (Elt Ideal))
    (w1l : (⟨S128x256, .f32⟩ : BufTy).Contents (Elt Ideal)) (b1 : (⟨S256, .f32⟩ : BufTy).Contents (Elt Ideal))
    (w1r : (⟨S128x256, .f32⟩ : BufTy).Contents (Elt Ideal)) (w2l : (⟨S256x128, .f32⟩ : BufTy).Contents (Elt Ideal))
    (b2 : (⟨S128, .f32⟩ : BufTy).Contents (Elt Ideal)) (w2r : (⟨S256x128, .f32⟩ : BufTy).Contents (Elt Ideal)) :
    FVec Ideal S10000x128 .f32 :=
  layer2 (truncf .bf16 (mean256 (edgeSrc E) (edgeDst E) (degreeColumn (edgeDst E)) (hidden E x w1l b1 w1r)) bitsLt_bf16_f32)
    (truncf .bf16 (hidden E x w1l b1 w1r) bitsLt_bf16_f32) (truncf .bf16 w2l bitsLt_bf16_f32) (truncf .bf16 w2r bitsLt_bf16_f32)
    (shapeCast S1x128 b2 shapeCasts_S128_S1x128)

variable (m : (ℓ : Loc nD τ sig) → Buf (Elt Ideal) ℓ) (ρ : Dev nD → PrngReg)

/-- The argument arrays as launched, by their roles. -/
abbrev argX (c : Dev nD) : (⟨S10000x128, .f32⟩ : BufTy).Contents (Elt Ideal) := m ((c.tc : Thread nD τ).loc main_arg0)
abbrev argE (c : Dev nD) : (⟨S2x640000, .i32⟩ : BufTy).Contents (Elt Ideal) := m ((c.tc : Thread nD τ).loc main_arg1)
abbrev argW1l (c : Dev nD) : (⟨S128x256, .f32⟩ : BufTy).Contents (Elt Ideal) := m ((c.tc : Thread nD τ).loc main_arg2)
abbrev argB1 (c : Dev nD) : (⟨S256, .f32⟩ : BufTy).Contents (Elt Ideal) := m ((c.tc : Thread nD τ).loc main_arg3)
abbrev argW1r (c : Dev nD) : (⟨S128x256, .f32⟩ : BufTy).Contents (Elt Ideal) := m ((c.tc : Thread nD τ).loc main_arg4)
abbrev argW2l (c : Dev nD) : (⟨S256x128, .f32⟩ : BufTy).Contents (Elt Ideal) := m ((c.tc : Thread nD τ).loc main_arg5)
abbrev argB2 (c : Dev nD) : (⟨S128, .f32⟩ : BufTy).Contents (Elt Ideal) := m ((c.tc : Thread nD τ).loc main_arg6)
abbrev argW2r (c : Dev nD) : (⟨S256x128, .f32⟩ : BufTy).Contents (Elt Ideal) := m ((c.tc : Thread nD τ).loc main_arg7)

/-! ## After the first host stretch -/

theorem first_src (c : Dev nD) : W1 m ρ c (Proc.devRef .tc main_v1) = edgeSrc (argE m c) := by
  show StableHlo.after hostOps0 (W0 m ρ c) (Proc.devRef .tc main_v1) = _
  after_results <;> rfl

theorem first_dst (c : Dev nD) : W1 m ρ c (Proc.devRef .tc main_v3) = edgeDst (argE m c) := by
  show StableHlo.after hostOps0 (W0 m ρ c) (Proc.devRef .tc main_v3) = _
  after_results <;> rfl

theorem first_deg (c : Dev nD) : W1 m ρ c (Proc.devRef .tc main_v10) = degreeColumn (edgeDst (argE m c)) := by
  show StableHlo.after hostOps0 (W0 m ρ c) (Proc.devRef .tc main_v10) = _
  after_results <;> rfl

set_option maxHeartbeats 4000000 in
theorem first_agg (c : Dev nD) : V1 m ρ c main_v23
    = (truncf .bf16 (mean128 (F := Ideal) (edgeSrc (argE m c)) (edgeDst (argE m c)) (degreeColumn (edgeDst (argE m c))) (argX m c)) bitsLt_bf16_f32
        : FVec Ideal S10000x128 .bf16) := by
  show StableHlo.after hostOps0 (W0 m ρ c) (Proc.devRef .tc main_v23) = _
  after_results_simp <;> rfl

theorem first_x (c : Dev nD) : V1 m ρ c main_v24 = (truncf .bf16 (argX m c) bitsLt_bf16_f32 : FVec Ideal S10000x128 .bf16) := by
  show StableHlo.after hostOps0 (W0 m ρ c) (Proc.devRef .tc main_v24) = _
  after_results <;> rfl

theorem first_wl (c : Dev nD) : V1 m ρ c main_v25 = (truncf .bf16 (argW1l m c) bitsLt_bf16_f32 : FVec Ideal S128x256 .bf16) := by
  show StableHlo.after hostOps0 (W0 m ρ c) (Proc.devRef .tc main_v25) = _
  after_results <;> rfl

theorem first_wr (c : Dev nD) : V1 m ρ c main_v26 = (truncf .bf16 (argW1r m c) bitsLt_bf16_f32 : FVec Ideal S128x256 .bf16) := by
  show StableHlo.after hostOps0 (W0 m ρ c) (Proc.devRef .tc main_v26) = _
  after_results <;> rfl

theorem first_bias (c : Dev nD) : V1 m ρ c main_v27 = (shapeCast S1x256 (argB1 m c) shapeCasts_S256_S1x256 : FVec Ideal S1x256 .f32) := by
  show StableHlo.after hostOps0 (W0 m ρ c) (Proc.devRef .tc main_v27) = _
  after_results <;> rfl

theorem first_w2l (c : Dev nD) : W1 m ρ c (Proc.devRef .tc main_arg5) = argW2l m c := by
  show StableHlo.after hostOps0 (W0 m ρ c) (Proc.devRef .tc main_arg5) = _
  after_results <;> rfl

theorem first_b2 (c : Dev nD) : W1 m ρ c (Proc.devRef .tc main_arg6) = argB2 m c := by
  show StableHlo.after hostOps0 (W0 m ρ c) (Proc.devRef .tc main_arg6) = _
  after_results <;> rfl

theorem first_w2r (c : Dev nD) : W1 m ρ c (Proc.devRef .tc main_arg7) = argW2r m c := by
  show StableHlo.after hostOps0 (W0 m ρ c) (Proc.devRef .tc main_arg7) = _
  after_results <;> rfl

/-! ## After the first region -/

/-- The first region's output array holds the hidden features. -/
theorem hidden_eq (c : Dev nD) : W2 m ρ c (Proc.devRef .tc main_v28) = hidden (argE m c) (argX m c) (argW1l m c) (argB1 m c) (argW1r m c) := by
  refine (W2_arr m ρ c 5).trans ?_
  rw [region0_result (V1 m ρ) c, first_agg m ρ c, first_x m ρ c, first_wl m ρ c, first_wr m ρ c, first_bias m ρ c]
  rfl

theorem second_src (c : Dev nD) : W2 m ρ c (Proc.devRef .tc main_v1) = edgeSrc (argE m c) :=
  (W2_of_ne m ρ c main_v1 (by decide)).trans (first_src m ρ c)
theorem second_dst (c : Dev nD) : W2 m ρ c (Proc.devRef .tc main_v3) = edgeDst (argE m c) :=
  (W2_of_ne m ρ c main_v3 (by decide)).trans (first_dst m ρ c)
theorem second_deg (c : Dev nD) : W2 m ρ c (Proc.devRef .tc main_v10) = degreeColumn (edgeDst (argE m c)) :=
  (W2_of_ne m ρ c main_v10 (by decide)).trans (first_deg m ρ c)
theorem second_w2l (c : Dev nD) : W2 m ρ c (Proc.devRef .tc main_arg5) = argW2l m c :=
  (W2_of_ne m ρ c main_arg5 (by decide)).trans (first_w2l m ρ c)
theorem second_b2 (c : Dev nD) : W2 m ρ c (Proc.devRef .tc main_arg6) = argB2 m c :=
  (W2_of_ne m ρ c main_arg6 (by decide)).trans (first_b2 m ρ c)
theorem second_w2r (c : Dev nD) : W2 m ρ c (Proc.devRef .tc main_arg7) = argW2r m c :=
  (W2_of_ne m ρ c main_arg7 (by decide)).trans (first_w2r m ρ c)

/-! ## After the second host stretch -/

set_option maxHeartbeats 4000000 in
theorem second_agg (c : Dev nD) : V3 m ρ c main_v41
    = (truncf .bf16 (mean256 (F := Ideal) (edgeSrc (argE m c)) (edgeDst (argE m c)) (degreeColumn (edgeDst (argE m c))) (hidden (argE m c) (argX m c) (argW1l m c) (argB1 m c) (argW1r m c))) bitsLt_bf16_f32
        : FVec Ideal S10000x256 .bf16) := by
  show StableHlo.after hostOps1 (W2 m ρ c) (Proc.devRef .tc main_v41) = _
  after_results_simp
  rw [second_src m ρ c, second_dst m ρ c, second_deg m ρ c, hidden_eq m ρ c]
  rfl

theorem second_h (c : Dev nD) : V3 m ρ c main_v42 = (truncf .bf16 (hidden (argE m c) (argX m c) (argW1l m c) (argB1 m c) (argW1r m c)) bitsLt_bf16_f32 : FVec Ideal S10000x256 .bf16) := by
  show StableHlo.after hostOps1 (W2 m ρ c) (Proc.devRef .tc main_v42) = _
  after_results
  rw [hidden_eq m ρ c]

theorem second_wl (c : Dev nD) : V3 m ρ c main_v43 = (truncf .bf16 (argW2l m c) bitsLt_bf16_f32 : FVec Ideal S256x128 .bf16) := by
  show StableHlo.after hostOps1 (W2 m ρ c) (Proc.devRef .tc main_v43) = _
  after_results
  rw [second_w2l m ρ c]

theorem second_wr (c : Dev nD) : V3 m ρ c main_v44 = (truncf .bf16 (argW2r m c) bitsLt_bf16_f32 : FVec Ideal S256x128 .bf16) := by
  show StableHlo.after hostOps1 (W2 m ρ c) (Proc.devRef .tc main_v44) = _
  after_results
  rw [second_w2r m ρ c]

theorem second_bias (c : Dev nD) : V3 m ρ c main_v45 = (shapeCast S1x128 (argB2 m c) shapeCasts_S128_S1x128 : FVec Ideal S1x128 .f32) := by
  show StableHlo.after hostOps1 (W2 m ρ c) (Proc.devRef .tc main_v45) = _
  after_results
  rw [second_b2 m ρ c]
  rfl

/-! ## After the second region -/

/-- The result buffer at the last boundary is the result term of the argument arrays. -/
theorem result_value (c : Dev nD) : W4 m ρ c (Proc.devRef .tc main_v46)
    = result (argE m c) (argX m c) (argW1l m c) (argB1 m c) (argW1r m c) (argW2l m c) (argB2 m c) (argW2r m c) := by
  refine (W4_arr m ρ c 5).trans ?_
  rw [region1_result (V3 m ρ) c, second_agg m ρ c, second_h m ρ c, second_wl m ρ c, second_wr m ρ c, second_bias m ρ c]
  rfl

end Cert.KernelIdeal.Sage

end
-- ==== Proof.RefLayers.lean ====
/-
  The reference's two dense layers are the kernel's two layer functions.

  The reference computes, on the host, (A · Wl + bias) + X · Wr with the bias vector [n] broadcast to a row and
  then over the 10000 rows, and for the first layer takes the maximum with zero. Read at entry (r, q) over the
  extended reals the host's dot_general is the sum over the contracted axis of the products, the double
  broadcast of the bias reads the vector at q, and the zero splat reads the zero word's value. The kernel's
  layer function of the SAME arrays passed through the format changes to bf16 (the identity on extended reals)
  and the bias reshaped [n] -> [1, n] (read at (0, q): the vector at q) has at (r, q) the value
  (sum + sum) + bias. The two differ by the order of three addends:

      (s + b) + s' = (s + s') + b,

  which holds in every commutative additive monoid, the extended reals with their infinities included. No
  finiteness of the inputs is used.
-/
import proofs.«162481_j20057497272825_1_alg».proof.Proof.Gen.ReferenceIdeal
import proofs.«162481_j20057497272825_1_alg».proof.Proof.LayerOne
import proofs.«162481_j20057497272825_1_alg».proof.Proof.LayerTwo
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Sage

open Cert.ReferenceIdeal Cert.ReferenceIdeal.Gen Idealize.ShloMosaic Idealize.ShloMosaic.ValueIdx

/-- The contraction of the reference's first-layer products: 128 input features. -/
abbrev dotR1 := dot_S10000x128_S128x256_S10000x256_1_0_0_1_n_n
/-- The contraction of the reference's second-layer products: 256 hidden features. -/
abbrev dotR2 := dot_S10000x256_S256x128_S10000x128_1_0_0_1_n_n

/-! ## The first layer -/

theorem dotR1_lhs0 (j : S10000x256.Idx) (q : dotR1.contr.Idx) : (dotR1.lhsIdx j q 0).val = (j 0).val := by
  unfold DotDims.lhsIdx
  rw [dif_neg (show ¬(0 : Fin S10000x128.rank) ∈ dotR1.lhsBatch by decide), dif_pos (show (0 : Fin S10000x128.rank) ∈ dotR1.lhsNonContracting by decide)]
  rfl
theorem dotR1_lhs1 (j : S10000x256.Idx) (q : dotR1.contr.Idx) : (dotR1.lhsIdx j q 1).val = (q ⟨0, by decide⟩).val :=
  dotR1.lhsIdx_val_of_single rfl j q
theorem dotR1_rhs0 (j : S10000x256.Idx) (q : dotR1.contr.Idx) : (dotR1.rhsIdx j q 0).val = (q ⟨0, by decide⟩).val :=
  dotR1.rhsIdx_val_of_single rfl j q
theorem dotR1_rhs1 (j : S10000x256.Idx) (q : dotR1.contr.Idx) : (dotR1.rhsIdx j q 1).val = (j 1).val := by
  unfold DotDims.rhsIdx
  rw [dif_neg (show ¬(1 : Fin S128x256.rank) ∈ dotR1.rhsBatch by decide), dif_pos (show (1 : Fin S128x256.rank) ∈ dotR1.rhsNonContracting by decide)]
  rfl

/-- Entry (r, q) of the host's [10000, 128] by [128, 256] product: the sum over the 128 contracted columns. -/
theorem hostProduct1_apply (l : FVec Ideal S10000x128 .f32) (w : FVec Ideal S128x256 .f32) (r : Fin 10000) (q : Fin 256) :
    Host.dotGeneral (F := Ideal) dotR1 none l w (ix2 r q) = ∑ k : Fin 128, l (ix2 r k) * w (ix2 k q) := by
  simp only [Host.dotGeneral]
  rw [Ideal.dotGeneral_apply, ← Equiv.sum_comp (contrEquiv1 dotR1 128 rfl rfl).symm]
  refine Finset.sum_congr rfl fun k _ => ?_
  have hk := contrEquiv1_symm_val dotR1 128 rfl rfl k
  have el : dotR1.lhsIdx (ix2 r q) ((contrEquiv1 dotR1 128 rfl rfl).symm k) = ix2 r k := funext fun a => Fin.ext (by
    match a with
    | ⟨0, _⟩ => exact dotR1_lhs0 _ _
    | ⟨1, _⟩ => exact (dotR1_lhs1 _ _).trans hk)
  have er : dotR1.rhsIdx (ix2 r q) ((contrEquiv1 dotR1 128 rfl rfl).symm k) = ix2 k q := funext fun a => Fin.ext (by
    match a with
    | ⟨0, _⟩ => exact (dotR1_rhs0 _ _).trans hk
    | ⟨1, _⟩ => exact dotR1_rhs1 _ _)
  rw [el, er]

/-- The bias vector [256] broadcast to a row and then over the rows, read at (r, q), is the vector at q. -/
theorem hostBias1_apply (b : FVec Ideal S256 .f32) (r : Fin 10000) (q : Fin 256) :
    broadcastInDim S10000x256 ![0, 1] bcast_S1x256_S10000x256_0_1 (broadcastInDim S1x256 ![1] bcast_S256_S1x256_1 b) (ix2 r q) = b (ix1 q) := by
  refine (broadcastInDim_apply _ bcast_S1x256_S10000x256_0_1 _ (ix2 r q) (ix2 (0 : Fin 1) q) (fun a => by
    match a with
    | ⟨0, _⟩ => show (0 : Nat) = if (1 : Nat) = 1 then 0 else r.val; rw [if_pos rfl]
    | ⟨1, _⟩ => show q.val = if (256 : Nat) = 1 then 0 else q.val; rw [if_neg (by decide)])).trans ?_
  exact broadcastInDim_apply _ bcast_S256_S1x256_1 b (ix2 (0 : Fin 1) q) (ix1 q) (fun a => by
    match a with
    | ⟨0, _⟩ => show q.val = if (256 : Nat) = 1 then 0 else q.val; rw [if_neg (by decide)])

/-- The zero splat over [10000, 256] reads the zero word's value everywhere. -/
theorem hostZero1_apply (i : S10000x256.Idx) :
    broadcastInDim S10000x256 ![] bcast_S_S10000x256 (constant (F := Ideal) S_ .f32 0x00000000#32) i = Ideal.ofBits .f32 0x00000000#32 :=
  broadcastInDim_apply _ bcast_S_S10000x256 _ i ix0 (fun a => a.elim0)

/-- The reference's first layer (products, bias, maximum with zero) is the kernel's first layer function of the
    same arrays through the format changes and the bias reshape. -/
theorem refLayer1_eq (A X : FVec Ideal S10000x128 .f32) (Wl Wr : FVec Ideal S128x256 .f32) (b : FVec Ideal S256 .f32)
    (hlt : FTy.bits .bf16 < FTy.bits .f32) (hsc : S256.ShapeCasts S1x256) :
    maximumf
      (addf (addf (Host.dotGeneral (F := Ideal) dotR1 none A Wl)
          (broadcastInDim S10000x256 ![0, 1] bcast_S1x256_S10000x256_0_1 (broadcastInDim S1x256 ![1] bcast_S256_S1x256_1 b)))
        (Host.dotGeneral (F := Ideal) dotR1 none X Wr))
      (broadcastInDim S10000x256 ![] bcast_S_S10000x256 (constant (F := Ideal) S_ .f32 0x00000000#32))
    = Cert.KernelIdeal.Sage.layer1 (truncf .bf16 A hlt) (truncf .bf16 X hlt) (truncf .bf16 Wl hlt) (truncf .bf16 Wr hlt) (shapeCast S1x256 b hsc) := by
  funext i
  obtain ⟨r, q, rfl⟩ : ∃ (r : Fin 10000) (q : Fin 256), i = ix2 r q := ⟨i 0, i 1, eq_ix2 i⟩
  rw [Cert.KernelIdeal.Sage.layer1_apply _ _ _ _ _ (ix2 r q) r q rfl rfl]
  unfold Cert.KernelIdeal.Sage.entry1
  simp only [maximumf_apply, addf_apply, truncf_apply]
  rw [hostProduct1_apply, hostProduct1_apply, hostBias1_apply, hostZero1_apply, shapeCast_a_1a_apply b hsc (0 : Fin 1) q, add_right_comm]

/-! ## The second layer -/

theorem dotR2_lhs0 (j : S10000x128.Idx) (q : dotR2.contr.Idx) : (dotR2.lhsIdx j q 0).val = (j 0).val := by
  unfold DotDims.lhsIdx
  rw [dif_neg (show ¬(0 : Fin S10000x256.rank) ∈ dotR2.lhsBatch by decide), dif_pos (show (0 : Fin S10000x256.rank) ∈ dotR2.lhsNonContracting by decide)]
  rfl
theorem dotR2_lhs1 (j : S10000x128.Idx) (q : dotR2.contr.Idx) : (dotR2.lhsIdx j q 1).val = (q ⟨0, by decide⟩).val :=
  dotR2.lhsIdx_val_of_single rfl j q
theorem dotR2_rhs0 (j : S10000x128.Idx) (q : dotR2.contr.Idx) : (dotR2.rhsIdx j q 0).val = (q ⟨0, by decide⟩).val :=
  dotR2.rhsIdx_val_of_single rfl j q
theorem dotR2_rhs1 (j : S10000x128.Idx) (q : dotR2.contr.Idx) : (dotR2.rhsIdx j q 1).val = (j 1).val := by
  unfold DotDims.rhsIdx
  rw [dif_neg (show ¬(1 : Fin S256x128.rank) ∈ dotR2.rhsBatch by decide), dif_pos (show (1 : Fin S256x128.rank) ∈ dotR2.rhsNonContracting by decide)]
  rfl

/-- Entry (r, q) of the host's [10000, 256] by [256, 128] product: the sum over the 256 contracted columns. -/
theorem hostProduct2_apply (l : FVec Ideal S10000x256 .f32) (w : FVec Ideal S256x128 .f32) (r : Fin 10000) (q : Fin 128) :
    Host.dotGeneral (F := Ideal) dotR2 none l w (ix2 r q) = ∑ k : Fin 256, l (ix2 r k) * w (ix2 k q) := by
  simp only [Host.dotGeneral]
  rw [Ideal.dotGeneral_apply, ← Equiv.sum_comp (contrEquiv1 dotR2 256 rfl rfl).symm]
  refine Finset.sum_congr rfl fun k _ => ?_
  have hk := contrEquiv1_symm_val dotR2 256 rfl rfl k
  have el : dotR2.lhsIdx (ix2 r q) ((contrEquiv1 dotR2 256 rfl rfl).symm k) = ix2 r k := funext fun a => Fin.ext (by
    match a with
    | ⟨0, _⟩ => exact dotR2_lhs0 _ _
    | ⟨1, _⟩ => exact (dotR2_lhs1 _ _).trans hk)
  have er : dotR2.rhsIdx (ix2 r q) ((contrEquiv1 dotR2 256 rfl rfl).symm k) = ix2 k q := funext fun a => Fin.ext (by
    match a with
    | ⟨0, _⟩ => exact (dotR2_rhs0 _ _).trans hk
    | ⟨1, _⟩ => exact dotR2_rhs1 _ _)
  rw [el, er]

/-- The bias vector [128] broadcast to a row and then over the rows, read at (r, q), is the vector at q. -/
theorem hostBias2_apply (b : FVec Ideal S128 .f32) (r : Fin 10000) (q : Fin 128) :
    broadcastInDim S10000x128 ![0, 1] bcast_S1x128_S10000x128_0_1 (broadcastInDim S1x128 ![1] bcast_S128_S1x128_1 b) (ix2 r q) = b (ix1 q) := by
  refine (broadcastInDim_apply _ bcast_S1x128_S10000x128_0_1 _ (ix2 r q) (ix2 (0 : Fin 1) q) (fun a => by
    match a with
    | ⟨0, _⟩ => show (0 : Nat) = if (1 : Nat) = 1 then 0 else r.val; rw [if_pos rfl]
    | ⟨1, _⟩ => show q.val = if (128 : Nat) = 1 then 0 else q.val; rw [if_neg (by decide)])).trans ?_
  exact broadcastInDim_apply _ bcast_S128_S1x128_1 b (ix2 (0 : Fin 1) q) (ix1 q) (fun a => by
    match a with
    | ⟨0, _⟩ => show q.val = if (128 : Nat) = 1 then 0 else q.val; rw [if_neg (by decide)])

/-- The reference's second layer (products and bias, no maximum) is the kernel's second layer function of the same
    arrays through the format changes and the bias reshape. -/
theorem refLayer2_eq (A X : FVec Ideal S10000x256 .f32) (Wl Wr : FVec Ideal S256x128 .f32) (b : FVec Ideal S128 .f32)
    (hlt : FTy.bits .bf16 < FTy.bits .f32) (hsc : S128.ShapeCasts S1x128) :
    addf (addf (Host.dotGeneral (F := Ideal) dotR2 none A Wl)
        (broadcastInDim S10000x128 ![0, 1] bcast_S1x128_S10000x128_0_1 (broadcastInDim S1x128 ![1] bcast_S128_S1x128_1 b)))
      (Host.dotGeneral (F := Ideal) dotR2 none X Wr)
    = Cert.KernelIdeal.Sage.layer2 (truncf .bf16 A hlt) (truncf .bf16 X hlt) (truncf .bf16 Wl hlt) (truncf .bf16 Wr hlt) (shapeCast S1x128 b hsc) := by
  funext i
  obtain ⟨r, q, rfl⟩ : ∃ (r : Fin 10000) (q : Fin 128), i = ix2 r q := ⟨i 0, i 1, eq_ix2 i⟩
  rw [Cert.KernelIdeal.Sage.layer2_apply _ _ _ _ _ (ix2 r q) r q rfl rfl]
  unfold Cert.KernelIdeal.Sage.entry2
  simp only [addf_apply, truncf_apply]
  rw [hostProduct2_apply, hostProduct2_apply, hostBias2_apply, shapeCast_a_1a_apply b hsc (0 : Fin 1) q, add_right_comm]

end Cert.ReferenceIdeal.Sage

end
-- ==== Proof.RefValue.lean ====
/-
  The reference's result is the kernel's result term of the same argument arrays.

  Read in order, the reference's host lines are: the shared mean aggregation of the node features; its first
  dense layer and the maximum with zero (the hidden features); the shared mean aggregation of the hidden
  features; its second dense layer. The aggregation chain is spelt with the same operations and literals as
  the kernel's program, so the reference run's result term unfolds to `refResult` below. Each dense layer is
  the kernel's layer function of the same operands (the order of three addends, in a commutative monoid), so
  the hidden features agree, hence the aggregated hidden features agree, hence the results agree.
-/
import proofs.«162481_j20057497272825_1_alg».proof.Proof.Gen.ReferenceIdeal.Run
import proofs.«162481_j20057497272825_1_alg».proof.Proof.HostMean
import proofs.«162481_j20057497272825_1_alg».proof.Proof.RefLayers
import proofs.«162481_j20057497272825_1_alg».proof.Proof.KernelValue
import Idealize.ShloMosaic.PureOps.Ideal

noncomputable section

namespace Cert.ReferenceIdeal.Sage

open Cert.ReferenceIdeal Cert.ReferenceIdeal.Gen Idealize.ShloMosaic Idealize.ShloMosaic.TcCoe Idealize.SL.Sem
open Cert.KernelIdeal.Sage (mean128 mean256 edgeSrc edgeDst degreeColumn)

/-- The reference's hidden features: its first dense layer of the mean-aggregated node features and the node features,
    then the maximum with zero. -/
def refHidden (E : (⟨S2x640000, .i32⟩ : BufTy).Contents (Elt Ideal)) (x : FVec Ideal S10000x128 .f32)
    (w1l : FVec Ideal S128x256 .f32) (b1 : FVec Ideal S256 .f32)
    (w1r : FVec Ideal S128x256 .f32) : FVec Ideal S10000x256 .f32 :=
  maximumf
    (addf (addf (Host.dotGeneral (F := Ideal) (φ₁ := .f32) (φ₂ := .f32) dotR1 none
          (mean128 (F := Ideal) (edgeSrc E) (edgeDst E) (degreeColumn (edgeDst E)) x : FVec Ideal S10000x128 .f32) w1l)
        (broadcastInDim S10000x256 ![0, 1] bcast_S1x256_S10000x256_0_1 (broadcastInDim S1x256 ![1] bcast_S256_S1x256_1 b1)))
      (Host.dotGeneral (F := Ideal) (φ₁ := .f32) (φ₂ := .f32) dotR1 none x w1r))
    (broadcastInDim S10000x256 ![] bcast_S_S10000x256 (constant (F := Ideal) S_ .f32 0x00000000#32))

/-- The reference's result: its second dense layer of the mean-aggregated hidden features and the hidden features. -/
def refResult (E : (⟨S2x640000, .i32⟩ : BufTy).Contents (Elt Ideal)) (x : FVec Ideal S10000x128 .f32)
    (w1l : FVec Ideal S128x256 .f32) (b1 : FVec Ideal S256 .f32)
    (w1r : FVec Ideal S128x256 .f32) (w2l : FVec Ideal S256x128 .f32)
    (b2 : FVec Ideal S128 .f32) (w2r : FVec Ideal S256x128 .f32) :
    FVec Ideal S10000x128 .f32 :=
  addf (addf (Host.dotGeneral (F := Ideal) (φ₁ := .f32) (φ₂ := .f32) dotR2 none
        (mean256 (F := Ideal) (edgeSrc E) (edgeDst E) (degreeColumn (edgeDst E)) (refHidden E x w1l b1 w1r) : FVec Ideal S10000x256 .f32) w2l)
      (broadcastInDim S10000x128 ![0, 1] bcast_S1x128_S10000x128_0_1 (broadcastInDim S1x128 ![1] bcast_S128_S1x128_1 b2)))
    (Host.dotGeneral (F := Ideal) (φ₁ := .f32) (φ₂ := .f32) dotR2 none (refHidden E x w1l b1 w1r) w2r)

set_option maxRecDepth 65536 in
/-- The reference run's result term is that composition of the launch contents: the printed host lines, read in
    order, are the shared aggregation chain around the two dense layers. -/
theorem res_eq_refResult (m : (ℓ : Loc nD τ sig) → Buf (Elt Ideal) ℓ) (c : Dev nD) :
    Cert.ReferenceIdeal.Value.res_main_v54 m c
      = refResult (m ((c.tc : Thread nD τ).loc main_arg1)) (m ((c.tc : Thread nD τ).loc main_arg0))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  unfold Cert.ReferenceIdeal.Value.res_main_v54
  rfl

/-- The reference's hidden features are the kernel's. -/
theorem refHidden_eq (E : (⟨S2x640000, .i32⟩ : BufTy).Contents (Elt Ideal)) (x : FVec Ideal S10000x128 .f32)
    (w1l : FVec Ideal S128x256 .f32) (b1 : FVec Ideal S256 .f32) (w1r : FVec Ideal S128x256 .f32) :
    refHidden E x w1l b1 w1r = Cert.KernelIdeal.Sage.hidden E x w1l b1 w1r := by
  unfold refHidden Cert.KernelIdeal.Sage.hidden
  exact refLayer1_eq (mean128 (F := Ideal) (edgeSrc E) (edgeDst E) (degreeColumn (edgeDst E)) x) x w1l w1r b1 _ _

/-- The reference's result is the kernel's. -/
theorem refResult_eq (E : (⟨S2x640000, .i32⟩ : BufTy).Contents (Elt Ideal)) (x : FVec Ideal S10000x128 .f32)
    (w1l : FVec Ideal S128x256 .f32) (b1 : FVec Ideal S256 .f32) (w1r : FVec Ideal S128x256 .f32)
    (w2l : FVec Ideal S256x128 .f32) (b2 : FVec Ideal S128 .f32) (w2r : FVec Ideal S256x128 .f32) :
    refResult E x w1l b1 w1r w2l b2 w2r = Cert.KernelIdeal.Sage.result E x w1l b1 w1r w2l b2 w2r := by
  unfold refResult Cert.KernelIdeal.Sage.result
  rw [refHidden_eq]
  exact refLayer2_eq (mean256 (F := Ideal) (edgeSrc E) (edgeDst E) (degreeColumn (edgeDst E)) (Cert.KernelIdeal.Sage.hidden E x w1l b1 w1r))
    (Cert.KernelIdeal.Sage.hidden E x w1l b1 w1r) w2l w2r b2 _ _

/-- The reference run's result term, as the kernel's result term of the reference's launch contents. -/
theorem reference_value (m : (ℓ : Loc nD τ sig) → Buf (Elt Ideal) ℓ) (c : Dev nD) :
    Cert.ReferenceIdeal.Value.res_main_v54 m c
      = Cert.KernelIdeal.Sage.result (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (res_eq_refResult m c).trans (refResult_eq _ _ _ _ _ _ _ _)

end Cert.ReferenceIdeal.Sage

end
-- ==== Proof.lean ====
/-
  Two-layer neighbourhood-mean graph convolution: the kernel against its jnp reference, over the extended reals.

  Both programs compute, for node features x [10000, 128] and an edge list [2, 640000],

      h   = max (mean_agg(x) · W1l + x · W1r + b1, 0)          [10000, 256]
      out = mean_agg(h) · W2l + h · W2r + b2                    [10000, 128]

  where mean_agg gathers the source rows of every edge, adds them at the destination rows and divides by the
  in-degree (at least one). The kernel keeps the gather, the scatter-add and the division on the host, exactly as
  the reference spells them, and runs each dense layer as a pipelined region over five blocks of 2000 rows:
  two block matrix products into zero accumulators, their sum, the bias row, and in the first layer the maximum
  with zero. Its operands pass through a change of format to bf16, which is the identity on extended reals.

  The claims:
  * the three programs run (terminate, no fault, arguments unchanged): the two kernel programs by their generated
    frame certificates, the reference by its generated run;
  * the idealization rewrote nothing, so `preserves` is `True`;
  * the results are equal: the kernel's run, with its result buffer read off the last boundary's contents
    (KernelRun), ends at `result` of the argument arrays (KernelValue: the regions' closed forms LayerOne and
    LayerTwo over the body's stored value BlockProduct, around the shared host chain HostMean); the reference's
    run ends at the same term of its arguments (RefValue: its printed lines are that chain around its two dense
    layers, and each dense layer is the kernel's layer function by RefLayers — the only law used is
    (s + b) + s' = (s + s') + b, which holds on all extended reals, so the precondition is never opened).
-/
import proofs.«162481_j20057497272825_1_alg».proof.Defs
import proofs.«162481_j20057497272825_1_alg».proof.Proof.Gen.Kernel
import proofs.«162481_j20057497272825_1_alg».proof.Proof.Gen.Kernel.Skeleton
import proofs.«162481_j20057497272825_1_alg».proof.Proof.Gen.Kernel.Launch
import proofs.«162481_j20057497272825_1_alg».proof.Proof.Gen.Kernel.Points
import proofs.«162481_j20057497272825_1_alg».proof.Proof.Gen.Kernel.Frame
import proofs.«162481_j20057497272825_1_alg».proof.Proof.Gen.KernelIdeal
import proofs.«162481_j20057497272825_1_alg».proof.Proof.Gen.KernelIdeal.Skeleton
import proofs.«162481_j20057497272825_1_alg».proof.Proof.Gen.KernelIdeal.Launch
import proofs.«162481_j20057497272825_1_alg».proof.Proof.Gen.KernelIdeal.Points
import proofs.«162481_j20057497272825_1_alg».proof.Proof.Gen.KernelIdeal.Frame
import proofs.«162481_j20057497272825_1_alg».proof.Proof.Gen.ReferenceIdeal
import proofs.«162481_j20057497272825_1_alg».proof.Proof.Gen.Pre_finite_inputs
import proofs.«162481_j20057497272825_1_alg».proof.Proof.Gen.ReferenceIdeal.Run
import proofs.«162481_j20057497272825_1_alg».proof.Proof.KernelRun
import proofs.«162481_j20057497272825_1_alg».proof.Proof.KernelValue
import proofs.«162481_j20057497272825_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both runs end with the result at `result` of the kernel's argument arrays: the kernel's by its run and the
    reading of the last boundary, the reference's by its run, the reading of its result term, and the agreement
    of the two launch memories on the arguments. -/
theorem algebraic : Cert.algebraic_KernelIdeal_ReferenceIdeal := by
  intro m ρ m' ρ' _ hagree
  refine ⟨fun c => Cert.KernelIdeal.Sage.result (Cert.KernelIdeal.Sage.argE m c) (Cert.KernelIdeal.Sage.argX m c)
      (Cert.KernelIdeal.Sage.argW1l m c) (Cert.KernelIdeal.Sage.argB1 m c) (Cert.KernelIdeal.Sage.argW1r m c)
      (Cert.KernelIdeal.Sage.argW2l m c) (Cert.KernelIdeal.Sage.argB2 m c) (Cert.KernelIdeal.Sage.argW2r m c), ?_, ?_⟩
  · exact (θ_run Cert.KernelIdeal.defs _ _).mono
      (fun r h c => ⟨(h c).1.trans (Cert.KernelIdeal.Sage.result_value m ρ c), (h c).2⟩)
      (Cert.KernelIdeal.Sage.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Sage.reference_value m' c]
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
